-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2000 : Shape := ⟨2, ![65536, 2000]⟩
abbrev S_ : Shape := ⟨0, ![]⟩

class Facts : Prop where
  bcast_S_S65536x2000 : S_.BroadcastsInDim S65536x2000 (![] : Fin 0 → Fin S65536x2000.rank)
  reducesTo_S65536x2000_S_d0_1 : S65536x2000.ReducesTo [0, 1] S_
  h_S_ : 0 < S_.numel
  reducesTo_S_S_d : S_.ReducesTo [] S_

variable [Facts]

def fn {F : FTy → Type} [FloatOps F] (main_arg0 : FVec F S65536x2000 .f32) (main_arg1 : FVec F S_ .f32) : IVec S_ 1 :=
  let main_v0 : FVec F S65536x2000 .f32 := Host.absf main_arg0
  let main_cst : FVec F S_ .f32 := constant S_ .f32 0x7F800000#32
  let main_v1 : FVec F S65536x2000 .f32 := broadcastInDim S65536x2000 ![] bcast_S_S65536x2000 main_cst
  let main_v2 : IVec S65536x2000 1 := cmpf .olt main_v0 main_v1
  let main_c : IVec S_ 1 := constantI S_ 1 1#1
  let main_v3 : IVec S_ 1 := (fun x v => Host.reduce IntOp.andi x v reducesTo_S65536x2000_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S65536x2000 : Shape := ⟨2, ![65536, 2000]⟩
abbrev S_ : Shape := ⟨0, ![]⟩
abbrev S32x8x128 : Shape := ⟨3, ![32, 8, 128]⟩
abbrev S2048x2000 : Shape := ⟨2, ![2048, 2000]⟩
abbrev S1x8x128 : Shape := ⟨3, ![1, 8, 128]⟩
abbrev S2048x1 : Shape := ⟨2, ![2048, 1]⟩
abbrev S1x2048x2000 : Shape := ⟨3, ![1, 2048, 2000]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S31 : Shape := ⟨1, ![31]⟩
abbrev S31x1 : Shape := ⟨2, ![31, 1]⟩
abbrev S1x1 : Shape := ⟨2, ![1, 1]⟩
abbrev S31x2000 : Shape := ⟨2, ![31, 2000]⟩

abbrev nBuf : Space → Nat
  | .hbm => 71
  | .vmem => 4
  | .smem => 0
  | _ => 0

abbrev bufTy : (tb : Table) → Fin (tcTables nBuf tb) → BufTy
  | .hbm, ⟨0, _⟩ => ⟨S65536x2000, .f32⟩
  | .hbm, ⟨1, _⟩ => ⟨S_, .f32⟩
  | .hbm, ⟨2, _⟩ => ⟨S32x8x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S31, .i32⟩
  | .hbm, ⟨8, _⟩ => ⟨S_, .i32⟩
  | .hbm, ⟨9, _⟩ => ⟨S31, .i32⟩
  | .hbm, ⟨10, _⟩ => ⟨S31, .i32⟩
  | .hbm, ⟨11, _⟩ => ⟨S_, .i32⟩
  | .hbm, ⟨12, _⟩ => ⟨S31, .i32⟩
  | .hbm, ⟨13, _⟩ => ⟨S31, .i32⟩
  | .hbm, ⟨14, _⟩ => ⟨S_, .i32⟩
  | .hbm, ⟨15, _⟩ => ⟨S31, .i32⟩
  | .hbm, ⟨16, _⟩ => ⟨S31, .i32⟩
  | .hbm, ⟨17, _⟩ => ⟨S_, .i32⟩
  | .hbm, ⟨18, _⟩ => ⟨S31, .i32⟩
  | .hbm, ⟨19, _⟩ => ⟨S31, .i1⟩
  | .hbm, ⟨20, _⟩ => ⟨S_, .i32⟩
  | .hbm, ⟨21, _⟩ => ⟨S31, .i32⟩
  | .hbm, ⟨22, _⟩ => ⟨S31, .i32⟩
  | .hbm, ⟨23, _⟩ => ⟨S31, .i32⟩
  | .hbm, ⟨24, _⟩ => ⟨S31x1, .i32⟩
  | .hbm, ⟨25, _⟩ => ⟨S1, .i32⟩
  | .hbm, ⟨26, _⟩ => ⟨S_, .i32⟩
  | .hbm, ⟨27, _⟩ => ⟨S31x1, .i32⟩
  | .hbm, ⟨28, _⟩ => ⟨S31x1, .i1⟩
  | .hbm, ⟨29, _⟩ => ⟨S1x1, .i32⟩
  | .hbm, ⟨30, _⟩ => ⟨S31x1, .i32⟩
  | .hbm, ⟨31, _⟩ => ⟨S31x1, .i1⟩
  | .hbm, ⟨32, _⟩ => ⟨S31x1, .i1⟩
  | .hbm, ⟨33, _⟩ => ⟨S_, .i1⟩
  | .hbm, ⟨34, _⟩ => ⟨S31, .i1⟩
  | .hbm, ⟨35, _⟩ => ⟨S31x2000, .f32⟩
  | .hbm, ⟨36, _⟩ => ⟨S31x2000, .i1⟩
  | .hbm, ⟨37, _⟩ => ⟨S_, .f32⟩
  | .hbm, ⟨38, _⟩ => ⟨S31x2000, .f32⟩
  | .hbm, ⟨39, _⟩ => ⟨S31x2000, .f32⟩
  | .hbm, ⟨40, _⟩ => ⟨S_, .i32⟩
  | .hbm, ⟨41, _⟩ => ⟨S31, .i32⟩
  | .hbm, ⟨42, _⟩ => ⟨S31, .i1⟩
  | .hbm, ⟨43, _⟩ => ⟨S_, .i32⟩
  | .hbm, ⟨44, _⟩ => ⟨S31, .i32⟩
  | .hbm, ⟨45, _⟩ => ⟨S31, .i32⟩
  | .hbm, ⟨46, _⟩ => ⟨S31, .i32⟩
  | .hbm, ⟨47, _⟩ => ⟨S31x1, .i32⟩
  | .hbm, ⟨48, _⟩ => ⟨S1, .i32⟩
  | .hbm, ⟨49, _⟩ => ⟨S_, .i32⟩
  | .hbm, ⟨50, _⟩ => ⟨S31x1, .i32⟩
  | .hbm, ⟨51, _⟩ => ⟨S31x1, .i1⟩
  | .hbm, ⟨52, _⟩ => ⟨S1x1, .i32⟩
  | .hbm, ⟨53, _⟩ => ⟨S31x1, .i32⟩
  | .hbm, ⟨54, _⟩ => ⟨S31x1, .i1⟩
  | .hbm, ⟨55, _⟩ => ⟨S31x1, .i1⟩
  | .hbm, ⟨56, _⟩ => ⟨S_, .i1⟩
  | .hbm, ⟨57, _⟩ => ⟨S31, .i1⟩
  | .hbm, ⟨58, _⟩ => ⟨S31x2000, .f32⟩
  | .hbm, ⟨59, _⟩ => ⟨S31x2000, .i1⟩
  | .hbm, ⟨60, _⟩ => ⟨S_, .f32⟩
  | .hbm, ⟨61, _⟩ => ⟨S31x2000, .f32⟩
  | .hbm, ⟨62, _⟩ => ⟨S31x2000, .f32⟩
  | .hbm, ⟨63, _⟩ => ⟨S31x2000, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S2048x2000, .f32⟩
  | .local _ .vmem, ⟨1, _⟩ => ⟨S2048x2000, .f32⟩
  | .local _ .vmem, ⟨2, _⟩ => ⟨S1x8x128, .f32⟩
  | .local _ .vmem, ⟨3, _⟩ => ⟨S1x8x128, .f32⟩
  | _, _ => ⟨S65536x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v11 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v12 : Ref sig .tc := ⟨.hbm, 62, rfl⟩
abbrev main_v13 : Ref sig .tc := ⟨.hbm, 63, rfl⟩
abbrev main_cst_2 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_cst_3 : Ref sig .tc := ⟨.hbm, 69, rfl⟩
abbrev main_v18 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x2000_S2048x2000_0_0 : ∀ a, (![0, 0] : Fin 2 → Nat) a + S2048x2000.size a ≤ S2048x2000.size a
  h_S2048x2000 : 0 < S2048x2000.numel
  rotates_S2048x2000_d0 : S2048x2000.Rotates 0 none
  iota_S2048x1_d0_w32 : S2048x1.Iotas .tc 32 [0]
  natLt_1_32 : 1 < 32
  broadcasts_S2048x1_S2048x2000 : S2048x1.Broadcasts S2048x2000
  shapeCasts_S2048x2000_S1x2048x2000 : S2048x2000.ShapeCasts S1x2048x2000
  reduces_S1x2048x2000_S1 : S1x2048x2000.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  bcast_S_S31 : S_.BroadcastsInDim S31 (![] : Fin 0 → Fin S31.rank)
  bcast_S31_S31x1_0 : S31.BroadcastsInDim S31x1 (![0] : Fin 1 → Fin S31x1.rank)
  bcast_S_S31x1 : S_.BroadcastsInDim S31x1 (![] : Fin 0 → Fin S31x1.rank)
  bcast_S1_S1x1_1 : S1.BroadcastsInDim S1x1 (![1] : Fin 1 → Fin S1x1.rank)
  bcast_S1x1_S31x1_0_1 : S1x1.BroadcastsInDim S31x1 (![0, 1] : Fin 2 → Fin S31x1.rank)
  reducesTo_S31x1_S31_d1 : S31x1.ReducesTo [1] S31
  bcast_S31_S31x2000_0 : S31.BroadcastsInDim S31x2000 (![0] : Fin 1 → Fin S31x2000.rank)
  bcast_S_S31x2000 : S_.BroadcastsInDim S31x2000 (![] : Fin 0 → Fin S31x2000.rank)
  reducesTo_S31x2000_S_d0_1 : S31x2000.ReducesTo [0, 1] S_
  gather_S65536x2000_S31x1_S31x2000_1_0_n_n_0_1_12000_wf : GatherDims.WF S65536x2000 S31x1 S31x2000 [1] [0] [] [0] [] 1 ![1, 2000]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2000.size a ≤ S65536x2000.size a
  hwx0_0 : ∀ i : grid0.Coords, EltTy.bits .f32 = 32 ∨ (Rect.block (s := S65536x2000) S2048x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S32x8x128.size a
  hwx0_1 : ∀ i : grid0.Coords, EltTy.bits .f32 = 32 ∨ (Rect.block (s := S32x8x128) S1x8x128.size (cc0_transform_1 i) (hinb0_1 i)).WholeWords (EltTy.packing .f32)

variable [Facts₀]

def gather_S65536x2000_S31x1_S31x2000_1_0_n_n_0_1_12000 : GatherDims S65536x2000 S31x1 S31x2000 where
  offsetDims := [1]
  collapsedSliceDims := [0]
  operandBatchingDims := []
  startIndicesBatchingDims := []
  startIndexMap := [0]
  indexVectorDim := 1
  sliceSizes := ![1, 2000]
  wf := gather_S65536x2000_S31x1_S31x2000_1_0_n_n_0_1_12000_wf

abbrev win0_0 : Pipeline.Window sig grid0 :=
  Pipeline.Window.ofSpec (Memref.whole main_arg0) S2048x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x2000 : Shape := ⟨2, ![65536, 2000]⟩
abbrev S_ : Shape := ⟨0, ![]⟩
abbrev S65535x2000 : Shape := ⟨2, ![65535, 2000]⟩

abbrev nBuf : Space → Nat
  | .hbm => 11
  | .vmem => 0
  | .smem => 0
  | _ => 0

abbrev bufTy : (tb : Table) → Fin (tcTables nBuf tb) → BufTy
  | .hbm, ⟨0, _⟩ => ⟨S65536x2000, .f32⟩
  | .hbm, ⟨1, _⟩ => ⟨S_, .f32⟩
  | .hbm, ⟨2, _⟩ => ⟨S65535x2000, .f32⟩
  | .hbm, ⟨3, _⟩ => ⟨S65535x2000, .f32⟩
  | .hbm, ⟨4, _⟩ => ⟨S65535x2000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S65536x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  slices_S65536x2000_S65535x2000_1_0 : S65536x2000.Slices ![1, 0] S65535x2000
  slices_S65536x2000_S65535x2000_0_0 : S65536x2000.Slices ![0, 0] S65535x2000
  reducesTo_S65535x2000_S_d0_1 : S65535x2000.ReducesTo [0, 1] S_
  h_S_ : 0 < S_.numel

variable [Facts₀]

class Facts : Prop extends Facts₀ where

variable [Facts]
-- ==== Proof.WholeBits.lean ====
/-
  The run of `Kernel`'s @main as a whole: one pipelined region over 32 grid points followed by 68 host lines.

  Grid point `t` fetches the 2048 consecutive rows `2048·t … 2048·t + 2047` of the factor matrix (all 2000
  columns), the body computes one number from them, and the point writes that number, repeated over an 8×128 tile, to
  slab `t` of a 32×8×128 array. The host lines after the region read that array and the factor matrix and write only
  buffers of their own; so both argument arrays end as they began, and every buffer the lines write ends at the
  lines' composed value of the region's output array and the arguments.
-/
import proofs.«175978_j31971736552148_2_alg».proof.Proof.Gen.Kernel.Launch
import proofs.«175978_j31971736552148_2_alg».proof.Proof.Gen.Kernel.Skeleton
import proofs.«175978_j31971736552148_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The four stretches of host lines that follow the region, in order: the sum of the slabs' first entries and the
    row indices of the chunk boundaries; the two row gathers; the boundary products, their sum, and the scaling. -/
abbrev tailOps : List (List (HloOp τ sig (Elt F))) := [hostOps1, hostOps1_1, hostOps1_2, hostOps1_3]

/-- Every buffer some line after the region writes: each line's own result buffer. Neither argument and not the
    region's output array is among them. -/
def tailWrites : List (Ref sig .tc) :=
  [main_v1, main_v2, main_cst, main_v3, main_v4, main_c, main_v5, main_v6, main_c_0, main_v7, main_v8, main_c_1, main_v9, main_v10, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v11, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v12, main_v13, main_cst_2, main_v14, main_v15, main_v16, main_v17, main_cst_3, main_v18]

/-- Nothing precedes the region: it finds every buffer as launched. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- A line whose result buffer is listed writes inside the listed set. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

theorem hostOps1_writes : (hostOps1 : List (HloOp τ sig (Elt F))).Forall fun op =>
    op.writes ⊆ (tailWrites.map (Proc.devRef (τ := τ) .tc)).toFinset := by
  simp only [List.Forall]; repeat' apply And.intro
  all_goals exact writes_mem (by decide)
theorem hostOps1_1_writes : (hostOps1_1 : List (HloOp τ sig (Elt F))).Forall fun op =>
    op.writes ⊆ (tailWrites.map (Proc.devRef (τ := τ) .tc)).toFinset := by
  simp only [List.Forall]; repeat' apply And.intro
  all_goals exact writes_mem (by decide)
theorem hostOps1_2_writes : (hostOps1_2 : List (HloOp τ sig (Elt F))).Forall fun op =>
    op.writes ⊆ (tailWrites.map (Proc.devRef (τ := τ) .tc)).toFinset := by
  simp only [List.Forall]; repeat' apply And.intro
  all_goals exact writes_mem (by decide)
theorem hostOps1_3_writes : (hostOps1_3 : List (HloOp τ sig (Elt F))).Forall fun op =>
    op.writes ⊆ (tailWrites.map (Proc.devRef (τ := τ) .tc)).toFinset := by
  simp only [List.Forall]; repeat' apply And.intro
  all_goals exact writes_mem (by decide)

/-- Each line after the region writes only listed buffers. -/
theorem tail_writes : ∀ ops ∈ (tailOps : List (List (HloOp τ sig (Elt F)))), ∀ op ∈ ops,
    op.writes ⊆ (tailWrites.map (Proc.devRef (τ := τ) .tc)).toFinset := by
  intro ops hops op hop
  simp only [tailOps, List.mem_cons, List.mem_nil_iff, or_false] at hops
  rcases hops with rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop

/-- The lines touch the pipeline's two arrays and the buffers that bypass the region, nothing else. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- A reference outside the listed buffers is written by no line. -/
theorem tail_not_written {r : Ref sig .tc} (hr : r ∉ tailWrites) :
    ∀ ops ∈ (tailOps : List (List (HloOp τ sig (Elt F)))), ∀ op ∈ ops, Proc.devRef (τ := τ) .tc r ∉ op.writes := by
  intro ops hops op hop hb
  obtain ⟨y, hy, he⟩ := List.mem_map.mp (List.mem_toFinset.mp (tail_writes ops hops op hop hb))
  exact hr (Proc.devRef_injective _ he ▸ hy)

/-- In particular neither array of the pipeline (the factor matrix, the region's output) is written by a line. -/
theorem tail_keeps : ∀ ops ∈ (tailOps : List (List (HloOp τ sig (Elt F)))), ∀ op ∈ ops,
    ∀ w, Proc.devRef .tc (Pipeline.arrRef spec0 w) ∉ op.writes :=
  fun ops hops op hop w => tail_not_written ((by decide : ∀ w, Pipeline.arrRef spec0 w ∉ tailWrites) w) ops hops op hop

/-- @main is the region continued by the four stretches (`main_chain`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [] tailOps trivial trivial main_chain

/-- A bypassing buffer no line writes ends as launched. -/
theorem tail_kept (dats : (p : Fin _) → (c : Dev nD) → Dat τ (Elt F) Unit ℕ (UR sig nD τ) ℕ (cfgs p) c) (c : Dev nD)
    (r : Ref sig .tc) (hr : r ∉ tailWrites) (ha : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, ho, h⟩ := List.mem_flatten.mp hop
      exact tail_not_written hr ops ho op h),
    Pipeline.withArrays_of_ne _ c (V0 m c) _ r ha]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The factor window's current staging buffer holds its block of 2048 rows at every point. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Both argument arrays end as launched: the factor matrix is an input window's array, the scalar weight a
    buffer that bypasses the region and that no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans
        (tail_kept m dats c main_arg1 (by decide) (by decide))⟩) h

/-! ## The body -/

/-- The body reads its whole block of rows and overwrites its whole output tile. -/
abbrev rRows : Rect S2048x2000 := Rect.unit (s := S2048x2000) ![0, 0] S2048x2000.size inb_S2048x2000_S2048x2000_0_0
abbrev rTile : Rect S1x8x128 := Rect.unit (s := S1x8x128) ![0, 0, 0] S1x8x128.size inb_S1x8x128_S1x8x128_0_0_0

/-- What the body leaves in the output tile, from the block of rows it was handed: its one store, over the whole tile. -/
def tileOut (x0 : Vec F S2048x2000 .f32) : Vec F S1x8x128 .f32 :=
  View.canon [⟨rTile, k0_pay1 (View.ld x0 rRows)⟩]

theorem tile_cover (p0 : Vec F S1x8x128 .f32) (y : S1x8x128.Idx) :
    ∃ pc ∈ ([⟨rTile, p0⟩] : List (View.Piece (Elt F) S1x8x128 .f32)), y ∈ pc.1.set :=
  View.cover_of_tiled [⟨rTile, p0⟩] S1x8x128.size (by rfl) y

set_option maxHeartbeats 1000000 in
/-- The body on whole staging memrefs, the rows' at contents `x0` and the tile's at anything, runs to its end leaving the
    rows as they were and the tile at `tileOut x0` (what the tile held before is read and not used). -/
theorem sound_kernel (c : Dev nD) (E : Set ℕ) (i : grid0.Coords) (arg1 : Memref sig .tc .vmem S2048x2000 .f32) (harg1 : arg1.IsWhole) (arg2 : Memref sig .tc .vmem S1x8x128 .f32) (harg2 : arg2.IsWhole)
    (x0 : Vec F S2048x2000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (tileOut x0)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tile_cover _)

/-! ## The pipeline's proof data -/

/-- On core `c`: the arrays as launched; after the body at point `t` the rows' buffer still at its block and the
    tile's at `tileOut` of that block; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tileOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_tile (c : Dev nD) (t : Fin cfg0.N) : (dats m 0 c).after 1 t = tileOut (iblk m c 0 t) := by dsimp only [dats]

theorem before_rows (c : Dev nD) (t : Fin cfg0.N) (d) : (dats m 0 c).before 0 t d = iblk m c 0 t :=
  before_in_of m (dats m 0 c) (A_eq m c 0) (after_rows m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows]
  rw [show (dats m 0 c).Φ t.succ = (dats m 0 c).Φ t.castSucc from rfl,
    show (dats m 0 c).owesAt () t.succ = (dats m 0 c).owesAt () t.castSucc from rfl,
    after_rows, after_tile]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, nothing faulting, with the region's output array at what the 32 points
    wrote back, the factor matrix as launched, and every other buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The program runs and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Whole

end
-- ==== Proof.WholeIdeal.lean ====
/-
  The run of `KernelIdeal`'s @main as a whole: one pipelined region over 32 grid points followed by 68 host lines.

  Grid point `t` fetches the 2048 consecutive rows `2048·t … 2048·t + 2047` of the factor matrix (all 2000
  columns), the body computes one number from them, and the point writes that number, repeated over an 8×128 tile, to
  slab `t` of a 32×8×128 array. The host lines after the region read that array and the factor matrix and write only
  buffers of their own; so both argument arrays end as they began, and every buffer the lines write ends at the
  lines' composed value of the region's output array and the arguments.
-/
import proofs.«175978_j31971736552148_2_alg».proof.Proof.Gen.KernelIdeal.Launch
import proofs.«175978_j31971736552148_2_alg».proof.Proof.Gen.KernelIdeal.Skeleton
import proofs.«175978_j31971736552148_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The four stretches of host lines that follow the region, in order: the sum of the slabs' first entries and the
    row indices of the chunk boundaries; the two row gathers; the boundary products, their sum, and the scaling. -/
abbrev tailOps : List (List (HloOp τ sig (Elt F))) := [hostOps1, hostOps1_1, hostOps1_2, hostOps1_3]

/-- Every buffer some line after the region writes: each line's own result buffer. Neither argument and not the
    region's output array is among them. -/
def tailWrites : List (Ref sig .tc) :=
  [main_v1, main_v2, main_cst, main_v3, main_v4, main_c, main_v5, main_v6, main_c_0, main_v7, main_v8, main_c_1, main_v9, main_v10, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v11, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v12, main_v13, main_cst_2, main_v14, main_v15, main_v16, main_v17, main_cst_3, main_v18]

/-- Nothing precedes the region: it finds every buffer as launched. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- A line whose result buffer is listed writes inside the listed set. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

theorem hostOps1_writes : (hostOps1 : List (HloOp τ sig (Elt F))).Forall fun op =>
    op.writes ⊆ (tailWrites.map (Proc.devRef (τ := τ) .tc)).toFinset := by
  simp only [List.Forall]; repeat' apply And.intro
  all_goals exact writes_mem (by decide)
theorem hostOps1_1_writes : (hostOps1_1 : List (HloOp τ sig (Elt F))).Forall fun op =>
    op.writes ⊆ (tailWrites.map (Proc.devRef (τ := τ) .tc)).toFinset := by
  simp only [List.Forall]; repeat' apply And.intro
  all_goals exact writes_mem (by decide)
theorem hostOps1_2_writes : (hostOps1_2 : List (HloOp τ sig (Elt F))).Forall fun op =>
    op.writes ⊆ (tailWrites.map (Proc.devRef (τ := τ) .tc)).toFinset := by
  simp only [List.Forall]; repeat' apply And.intro
  all_goals exact writes_mem (by decide)
theorem hostOps1_3_writes : (hostOps1_3 : List (HloOp τ sig (Elt F))).Forall fun op =>
    op.writes ⊆ (tailWrites.map (Proc.devRef (τ := τ) .tc)).toFinset := by
  simp only [List.Forall]; repeat' apply And.intro
  all_goals exact writes_mem (by decide)

/-- Each line after the region writes only listed buffers. -/
theorem tail_writes : ∀ ops ∈ (tailOps : List (List (HloOp τ sig (Elt F)))), ∀ op ∈ ops,
    op.writes ⊆ (tailWrites.map (Proc.devRef (τ := τ) .tc)).toFinset := by
  intro ops hops op hop
  simp only [tailOps, List.mem_cons, List.mem_nil_iff, or_false] at hops
  rcases hops with rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop

/-- The lines touch the pipeline's two arrays and the buffers that bypass the region, nothing else. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- A reference outside the listed buffers is written by no line. -/
theorem tail_not_written {r : Ref sig .tc} (hr : r ∉ tailWrites) :
    ∀ ops ∈ (tailOps : List (List (HloOp τ sig (Elt F)))), ∀ op ∈ ops, Proc.devRef (τ := τ) .tc r ∉ op.writes := by
  intro ops hops op hop hb
  obtain ⟨y, hy, he⟩ := List.mem_map.mp (List.mem_toFinset.mp (tail_writes ops hops op hop hb))
  exact hr (Proc.devRef_injective _ he ▸ hy)

/-- In particular neither array of the pipeline (the factor matrix, the region's output) is written by a line. -/
theorem tail_keeps : ∀ ops ∈ (tailOps : List (List (HloOp τ sig (Elt F)))), ∀ op ∈ ops,
    ∀ w, Proc.devRef .tc (Pipeline.arrRef spec0 w) ∉ op.writes :=
  fun ops hops op hop w => tail_not_written ((by decide : ∀ w, Pipeline.arrRef spec0 w ∉ tailWrites) w) ops hops op hop

/-- @main is the region continued by the four stretches (`main_chain`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [] tailOps trivial trivial main_chain

/-- A bypassing buffer no line writes ends as launched. -/
theorem tail_kept (dats : (p : Fin _) → (c : Dev nD) → Dat τ (Elt F) Unit ℕ (UR sig nD τ) ℕ (cfgs p) c) (c : Dev nD)
    (r : Ref sig .tc) (hr : r ∉ tailWrites) (ha : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, ho, h⟩ := List.mem_flatten.mp hop
      exact tail_not_written hr ops ho op h),
    Pipeline.withArrays_of_ne _ c (V0 m c) _ r ha]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The factor window's current staging buffer holds its block of 2048 rows at every point. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Both argument arrays end as launched: the factor matrix is an input window's array, the scalar weight a
    buffer that bypasses the region and that no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans
        (tail_kept m dats c main_arg1 (by decide) (by decide))⟩) h

/-! ## The body -/

/-- The body reads its whole block of rows and overwrites its whole output tile. -/
abbrev rRows : Rect S2048x2000 := Rect.unit (s := S2048x2000) ![0, 0] S2048x2000.size inb_S2048x2000_S2048x2000_0_0
abbrev rTile : Rect S1x8x128 := Rect.unit (s := S1x8x128) ![0, 0, 0] S1x8x128.size inb_S1x8x128_S1x8x128_0_0_0

/-- What the body leaves in the output tile, from the block of rows it was handed: its one store, over the whole tile. -/
def tileOut (x0 : Vec F S2048x2000 .f32) : Vec F S1x8x128 .f32 :=
  View.canon [⟨rTile, k0_pay1 (View.ld x0 rRows)⟩]

theorem tile_cover (p0 : Vec F S1x8x128 .f32) (y : S1x8x128.Idx) :
    ∃ pc ∈ ([⟨rTile, p0⟩] : List (View.Piece (Elt F) S1x8x128 .f32)), y ∈ pc.1.set :=
  View.cover_of_tiled [⟨rTile, p0⟩] S1x8x128.size (by rfl) y

set_option maxHeartbeats 1000000 in
/-- The body on whole staging memrefs, the rows' at contents `x0` and the tile's at anything, runs to its end leaving the
    rows as they were and the tile at `tileOut x0` (what the tile held before is read and not used). -/
theorem sound_kernel (c : Dev nD) (E : Set ℕ) (i : grid0.Coords) (arg1 : Memref sig .tc .vmem S2048x2000 .f32) (harg1 : arg1.IsWhole) (arg2 : Memref sig .tc .vmem S1x8x128 .f32) (harg2 : arg2.IsWhole)
    (x0 : Vec F S2048x2000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (tileOut x0)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tile_cover _)

/-! ## The pipeline's proof data -/

/-- On core `c`: the arrays as launched; after the body at point `t` the rows' buffer still at its block and the
    tile's at `tileOut` of that block; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tileOut (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_tile (c : Dev nD) (t : Fin cfg0.N) : (dats m 0 c).after 1 t = tileOut (iblk m c 0 t) := by dsimp only [dats]

theorem before_rows (c : Dev nD) (t : Fin cfg0.N) (d) : (dats m 0 c).before 0 t d = iblk m c 0 t :=
  before_in_of m (dats m 0 c) (A_eq m c 0) (after_rows m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows]
  rw [show (dats m 0 c).Φ t.succ = (dats m 0 c).Φ t.castSucc from rfl,
    show (dats m 0 c).owesAt () t.succ = (dats m 0 c).owesAt () t.castSucc from rfl,
    after_rows, after_tile]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, nothing faulting, with the region's output array at what the 32 points
    wrote back, the factor matrix as launched, and every other buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The program runs and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Whole

end
-- ==== Proof.Blocks.lean ====
/-
  The region's output array as one function of the factor matrix.

  Point `t` of the grid is handed chunk `t` of the matrix — rows `2048·t … 2048·t + 2047`, all columns — and its body
  computes ONE number from the chunk (`tileNum`), which it writes to every entry of tile `t` of the output array. The 32
  tiles are the 32 slabs of the array along its first axis, so they cover it, and entry `(k, a, b)` of the array ends at
  the number of chunk `k`.
-/
import proofs.«175978_j31971736552148_2_alg».proof.Proof.WholeIdeal
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Whole

variable {F : FTy → Type} [FloatOps F]
variable (m : (ℓ : Loc nD τ sig) → Buf (Elt F) ℓ) (ρ : Dev nD → PrngReg)

/-- The body's one number from its block of rows `x0`: the entries times the entries one row up (the rows taken
    cyclically), times a row mask that is 0 on the first row and 1 elsewhere, summed over the whole block. -/
def tileNum (x0 : Vec F S2048x2000 .f32) : F .f32 :=
  extractAt ![0, 0, 0]
    (shapeCast S1x1x1
      (multiReduction .add [1, 2] S1
        (shapeCast S1x2048x2000
          (mulf (mulf x0 (dynamicRotate 0 1#32 none x0 rotates_S2048x2000_d0))
            (broadcastTo S2048x2000
              (sitofp .f32 (extui 32 (cmpi .sgt (iota .tc S2048x1 32 [0] iota_S2048x1_d0_w32) (broadcast S2048x1 0#32)) natLt_1_32))
              broadcasts_S2048x1_S2048x2000))
          shapeCasts_S2048x2000_S1x2048x2000)
        0x00000000#32 reduces_S1x2048x2000_S1 (.inl rfl) rfl)
      shapeCasts_S1_S1x1x1)
    inpos_S1x1x1_p0_0_0

/-- What the body stores is that number at every entry of the tile. -/
theorem pay_eq (x0 : Vec F S2048x2000 .f32) : k0_pay1 x0 = broadcast S1x8x128 (tileNum x0) := rfl

/-- Chunk `k` of the matrix `x`: its 2048 rows from row `2048·k`. -/
def chunk (x : S65536x2000.Idx → Elt F .f32) (k : Fin 32) : Vec F S2048x2000 .f32 :=
  fun y => x (ix2 (⟨2048 * k.val + (y 0).val, by have := k.isLt; have := idx2_lt0 y; omega⟩ : Fin 65536)
    (⟨(y 1).val, idx2_lt1 y⟩ : Fin 2000))

/-- The output array from the matrix: entry `(k, a, b)` is chunk `k`'s number. -/
def outArr (x : S65536x2000.Idx → Elt F .f32) : S32x8x128.Idx → Elt F .f32 :=
  fun i => tileNum (chunk x ⟨(i 0).val, (i 0).isLt⟩)

/-- A grid point as a chunk number. -/
def pt (t : Fin cfg0.N) : Fin 32 := ⟨t.val, lt_of_lt_of_eq t.isLt N_0⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the rows' window is at block `t` of the first axis and block 0 of the
    second; the tile's window at block `t` of the first axis and block 0 of the other two. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The block of rows point `t` is handed is chunk `t` of the matrix as launched. -/
theorem rows_eq (c : Dev nD) (t : Fin cfg0.N) : iblk m c 0 t = chunk (V m c main_arg0) (pt t) := by
  obtain ⟨e0, e1, -, -, -⟩ := idx_facts t
  unfold iblk chunk pt
  funext y
  show V m c main_arg0 (((cfg0.win 0).blk t).view.emb y) = V m c main_arg0 _
  refine congrArg (V m c main_arg0) (funext fun a => Fin.ext ?_)
  match a with
  | ⟨0, _⟩ => show win0_0.index t (0 : Fin 2) * 2048 + 1 * (y 0).val = 2048 * t.val + (y 0).val; omega
  | ⟨1, _⟩ => show win0_0.index t (1 : Fin 2) * 2000 + 1 * (y 1).val = (y 1).val; omega

/-- WHAT POINT `t` WRITES BACK is tile `t` of `outArr` of the matrix. -/
theorem flushed_eq (c : Dev nD) (t : Fin cfg0.N) :
    (dats m 0 c).flushed 1 t = ((cfg0.win 1).blk t).view.read (Elt F) (outArr (V m c main_arg0)) := by
  show (cfg0.win 1).cut (grid0.coords t) ((dats m 0 c).after 1 t) = _
  rw [after_tile]
  unfold tileOut
  rw [View.canon_unit_zero hz3]
  simp only [View.ld_unit_zero (S := S2048x2000) hz2]
  rw [pay_eq, rows_eq]
  obtain ⟨-, -, e2, -, -⟩ := idx_facts t
  funext j
  show tileNum (chunk (V m c main_arg0) (pt t)) = outArr (V m c main_arg0) (((cfg0.win 1).blk t).view.emb j)
  unfold outArr pt
  refine congrArg (fun k => tileNum (chunk (V m c main_arg0) k)) (Fin.ext ?_)
  show t.val = win0_1.index t (0 : Fin 3) * 1 + 1 * (j 0).val
  have hj : (j 0).val < 1 := (j 0).isLt
  omega

/-- An index of the array is in point `t`'s tile iff each coordinate is in the tile's range on its axis. -/
theorem mem_blk (t : Fin cfg0.N) (i : S32x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v0).slice (win0_1.rect t)).set ↔ _
  rw [View.set_slice_whole, Rect.mem_set_unit]
  exact Iff.rfl

/-- Every index of the array is in the tile of the point named by its first coordinate. -/
theorem covered (i : S32x8x128.Idx) :
    ∃ t : Fin cfg0.N, (cfg0.win 1).flush t = true ∧ i ∈ ((cfg0.win 1).blk t).view.set := by
  have hi0 : (i 0).val < 32 := (i 0).isLt
  have hi1 : (i 1).val < 8 := (i 1).isLt
  have hi2 : (i 2).val < 128 := (i 2).isLt
  have hN : (i 0).val < cfg0.N := lt_of_lt_of_eq hi0 N_0.symm
  obtain ⟨-, -, e2, e3, e4⟩ := idx_facts ⟨(i 0).val, hN⟩
  refine ⟨⟨(i 0).val, hN⟩, flush0_1 _, ?_⟩
  rw [mem_blk]
  intro a
  match a with
  | ⟨0, _⟩ => show win0_1.index ⟨(i 0).val, hN⟩ (0 : Fin 3) * 1 ≤ (i 0).val ∧ (i 0).val < win0_1.index ⟨(i 0).val, hN⟩ (0 : Fin 3) * 1 + 1; simp only at e2; omega
  | ⟨1, _⟩ => show win0_1.index ⟨(i 0).val, hN⟩ (1 : Fin 3) * 8 ≤ (i 1).val ∧ (i 1).val < win0_1.index ⟨(i 0).val, hN⟩ (1 : Fin 3) * 8 + 8; omega
  | ⟨2, _⟩ => show win0_1.index ⟨(i 0).val, hN⟩ (2 : Fin 3) * 128 ≤ (i 2).val ∧ (i 2).val < win0_1.index ⟨(i 0).val, hN⟩ (2 : Fin 3) * 128 + 128; omega

/-- THE OUTPUT ARRAY after the run. -/
theorem final (c : Dev nD) : (dats m 0 c).arrAt 1 cfg0.N = outArr (V m c main_arg0) :=
  (dats m 0 c).arrAt_eq_of_cover 1 _ (fun t _ => flushed_eq m c t) covered

end Cert.KernelIdeal.Blocks

end
-- ==== Proof.TailIdeal.lean ====
/-
  What the host lines after the region compute, stretch by stretch, as pure terms of the buffers they read.

  The lines are four stretches. The first sums the first entry of each of the 32 output tiles and builds two vectors of 31
  row numbers; the second and third each take 31 rows of the factor matrix at one of those vectors (the same function,
  `takeRows`, at different operands); the fourth multiplies the two row blocks entry by entry, sums the products, adds
  the two sums, and scales by the negated weight over a constant.
-/
import proofs.«175978_j31971736552148_2_alg».proof.Proof.WholeIdeal
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Whole

variable {F : FTy → Type} [FloatOps F]

/-- Rows of the matrix `x` at the row numbers `idx` (one per result row), as `jnp.take` in fill mode spells it: a
    negative number is first moved up by the row count; the row is then gathered (the gather itself clamps the number
    into range); and a result row whose number was outside `0 … 65535` is replaced by the fill value. -/
def takeRows (x : (⟨S65536x2000, .f32⟩ : BufTy).Contents (Elt F)) (idx : (⟨S31, .i32⟩ : BufTy).Contents (Elt F)) :
    (⟨S31x2000, .f32⟩ : BufTy).Contents (Elt F) :=
  select
    (broadcastInDim S31x2000 ![0] bcast_S31_S31x2000_0
      (Host.reduce IntOp.andi
        (andi
          (cmpi .sge
            (broadcastInDim S31x1 ![0] bcast_S31_S31x1_0
              (select (cmpi .slt idx (broadcastInDim S31 ![] bcast_S_S31 (constantI S_ 32 0#32)))
                (addi idx (broadcastInDim S31 ![] bcast_S_S31 (constantI S_ 32 65536#32))) idx))
            (broadcastInDim S31x1 ![] bcast_S_S31x1 (constantI S_ 32 0#32)))
          (cmpi .sle
            (broadcastInDim S31x1 ![0] bcast_S31_S31x1_0
              (select (cmpi .slt idx (broadcastInDim S31 ![] bcast_S_S31 (constantI S_ 32 0#32)))
                (addi idx (broadcastInDim S31 ![] bcast_S_S31 (constantI S_ 32 65536#32))) idx))
            (broadcastInDim S31x1 ![0, 1] bcast_S1x1_S31x1_0_1 (broadcastInDim S1x1 ![1] bcast_S1_S1x1_1 (constantI S1 32 65535#32)))))
        (constantI S_ 1 1#1) reducesTo_S31x1_S31_d1 h_S_))
    (Host.gather gather_S65536x2000_S31x1_S31x2000_1_0_n_n_0_1_12000 x
      (broadcastInDim S31x1 ![0] bcast_S31_S31x1_0
        (select (cmpi .slt idx (broadcastInDim S31 ![] bcast_S_S31 (constantI S_ 32 0#32)))
          (addi idx (broadcastInDim S31 ![] bcast_S_S31 (constantI S_ 32 65536#32))) idx)))
    (broadcastInDim S31x2000 ![] bcast_S_S31x2000 (constant S_ .f32 0x7FC00000#32))

/-- The row numbers of the chunks' first rows but the first chunk's: `(1 + k) · 2048` for `k < 31`, as 32-bit words. -/
def firstRows : (⟨S31, .i32⟩ : BufTy).Contents (Elt F) :=
  muli (addi (broadcastInDim S31 ![] bcast_S_S31 (constantI S_ 32 1#32)) (iotaInDim S31 32 0))
    (broadcastInDim S31 ![] bcast_S_S31 (constantI S_ 32 2048#32))
/-- The row numbers of the chunks' last rows but the last chunk's: one less. -/
def lastRows : (⟨S31, .i32⟩ : BufTy).Contents (Elt F) :=
  subi (firstRows (F := F)) (broadcastInDim S31 ![] bcast_S_S31 (constantI S_ 32 1#32))

/-- The sum of the first entries of the 32 tiles of the region's output array `y`. -/
def tileTotal (y : (⟨S32x8x128, .f32⟩ : BufTy).Contents (Elt F)) : (⟨S_, .f32⟩ : BufTy).Contents (Elt F) :=
  Host.reduceAdd (shapeCast S32 (extractStridedSlice S32x1x1 ![0, 0, 0] y slices_S32x8x128_S32x1x1_0_0_0) shapeCasts_S32x1x1_S32)
    (constant S_ .f32 0x00000000#32) reducesTo_S32_S_d0 h_S_

/-- The last stretch: from the tiles' total `a`, the two row blocks `p`, `q` and the weight `w`. -/
def scaled (a : (⟨S_, .f32⟩ : BufTy).Contents (Elt F)) (p q : (⟨S31x2000, .f32⟩ : BufTy).Contents (Elt F))
    (w : (⟨S_, .f32⟩ : BufTy).Contents (Elt F)) : (⟨S_, .f32⟩ : BufTy).Contents (Elt F) :=
  Host.divf (mulf (Host.negf w) (addf a (Host.reduceAdd (mulf p q) (constant S_ .f32 0x00000000#32) reducesTo_S31x2000_S_d0_1 h_S_)))
    (constant S_ .f32 0x477FFF00#32)

variable (W : Valuation τ sig (Elt F))

/-! ## First stretch -/

theorem s1_total : after hostOps1 W (Proc.devRef .tc main_v3) = tileTotal (F := F) (W (Proc.devRef .tc main_v0)) := by
  after_results_simp; rfl
theorem s1_last : after hostOps1 W (Proc.devRef .tc main_v10) = lastRows (F := F) := by
  after_results_simp; rfl
theorem s1_first : after hostOps1 W (Proc.devRef .tc main_v8) = firstRows (F := F) := by
  after_results_simp; rfl
theorem s1_arg0 : after hostOps1 W (Proc.devRef .tc main_arg0) = W (Proc.devRef .tc main_arg0) := by
  after_results_simp
theorem s1_arg1 : after hostOps1 W (Proc.devRef .tc main_arg1) = W (Proc.devRef .tc main_arg1) := by
  after_results_simp

/-! ## Second stretch: the rows at the last-row numbers -/

theorem s2_rows : after hostOps1_1 W (Proc.devRef .tc main_v11)
    = takeRows (F := F) (W (Proc.devRef .tc main_arg0)) (W (Proc.devRef .tc main_v10)) := by
  after_results_simp; rfl
theorem s2_total : after hostOps1_1 W (Proc.devRef .tc main_v3) = W (Proc.devRef .tc main_v3) := by
  after_results_simp
theorem s2_first : after hostOps1_1 W (Proc.devRef .tc main_v8) = W (Proc.devRef .tc main_v8) := by
  after_results_simp
theorem s2_arg0 : after hostOps1_1 W (Proc.devRef .tc main_arg0) = W (Proc.devRef .tc main_arg0) := by
  after_results_simp
theorem s2_arg1 : after hostOps1_1 W (Proc.devRef .tc main_arg1) = W (Proc.devRef .tc main_arg1) := by
  after_results_simp

/-! ## Third stretch: the rows at the first-row numbers -/

theorem s3_rows : after hostOps1_2 W (Proc.devRef .tc main_v12)
    = takeRows (F := F) (W (Proc.devRef .tc main_arg0)) (W (Proc.devRef .tc main_v8)) := by
  after_results_simp; rfl
theorem s3_prev : after hostOps1_2 W (Proc.devRef .tc main_v11) = W (Proc.devRef .tc main_v11) := by
  after_results_simp
theorem s3_total : after hostOps1_2 W (Proc.devRef .tc main_v3) = W (Proc.devRef .tc main_v3) := by
  after_results_simp
theorem s3_arg1 : after hostOps1_2 W (Proc.devRef .tc main_arg1) = W (Proc.devRef .tc main_arg1) := by
  after_results_simp

/-! ## Fourth stretch -/

theorem s4_result : after hostOps1_3 W (Proc.devRef .tc main_v18)
    = scaled (F := F) (W (Proc.devRef .tc main_v3)) (W (Proc.devRef .tc main_v11)) (W (Proc.devRef .tc main_v12))
        (W (Proc.devRef .tc main_arg1)) := by
  after_results_simp; rfl

/-! ## The four together -/

/-- The result buffer after all the lines, from the region's output array and the two arguments as the lines find them. -/
theorem tail_result : after (List.flatten (tailOps (F := F))) W (Proc.devRef .tc main_v18)
    = scaled (F := F) (tileTotal (W (Proc.devRef .tc main_v0)))
        (takeRows (W (Proc.devRef .tc main_arg0)) lastRows) (takeRows (W (Proc.devRef .tc main_arg0)) firstRows)
        (W (Proc.devRef .tc main_arg1)) := by
  simp only [tailOps, List.flatten_cons, List.flatten_nil, List.append_nil, after_append]
  rw [s4_result, s3_rows, s3_prev, s3_total, s3_arg1, s2_rows, s2_total, s2_first, s2_arg0, s2_arg1,
    s1_total, s1_last, s1_first, s1_arg0, s1_arg1]

end Cert.KernelIdeal.Tail

end
-- ==== Proof.Result.lean ====
/-
  The kernel program's run, read: the result buffer as one term of the two arguments.

  When the region ends, the lines after it find the output array at `outArr` of the factor matrix, and the matrix and the
  weight as launched; the lines' composed term at those is the program's result.
-/
import proofs.«175978_j31971736552148_2_alg».proof.Proof.Blocks
import proofs.«175978_j31971736552148_2_alg».proof.Proof.TailIdeal

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.KernelIdeal.Whole Cert.KernelIdeal.Blocks Cert.KernelIdeal.Tail

variable {F : FTy → Type} [FloatOps F]
variable (m : (ℓ : Loc nD τ sig) → Buf (Elt F) ℓ) (ρ : Dev nD → PrngReg)

/-- What the lines after the region find in each buffer: the pipeline's two arrays as the region leaves them, every
    other buffer as launched. -/
abbrev found (c : Dev nD) : Valuation τ sig (Elt F) :=
  Pipeline.withArrays spec0 c (V0 m c) fun w => (dats m 0 c).arrAt w cfg0.N

theorem found_out (c : Dev nD) :
    found m c (Proc.devRef .tc main_v0) = outArr (m ((c : Thread nD τ).loc main_arg0)) :=
  (Pipeline.withArrays_arr spec0 launch0.win.arr_inj c _ _ (1 : Fin 2)).trans (Blocks.final m c)

theorem found_matrix (c : Dev nD) :
    found m c (Proc.devRef .tc main_arg0) = m ((c : Thread nD τ).loc main_arg0) :=
  (Pipeline.withArrays_arr spec0 launch0.win.arr_inj c _ _ (0 : Fin 2)).trans
    (((dats m 0 c).arrAt_in 0 rfl _).trans (A_eq m c 0))

theorem found_weight (c : Dev nD) :
    found m c (Proc.devRef .tc main_arg1) = m ((c : Thread nD τ).loc main_arg1) :=
  Pipeline.withArrays_of_ne spec0 c (V0 m c) _ main_arg1 (by decide)

/-- The result buffer after the lines. -/
theorem result (c : Dev nD) :
    Pipeline.afterTail₀ cfgs (dats m) 0 (V0 m) tailOps c main_v18
      = scaled (tileTotal (outArr (m ((c : Thread nD τ).loc main_arg0))))
          (takeRows (m ((c : Thread nD τ).loc main_arg0)) lastRows) (takeRows (m ((c : Thread nD τ).loc main_arg0)) firstRows)
          (m ((c : Thread nD τ).loc main_arg1)) := by
  unfold Pipeline.afterTail₀
  show StableHlo.after (List.flatten tailOps) (found m c) (Proc.devRef .tc main_v18) = _
  rw [tail_result, found_out, found_matrix, found_weight]

/-- Every weakly fair execution of the program ends with the result at that term and the arguments unchanged. -/
theorem run : θ_run defs (onTc (τ := τ) (main (F := F))) ⟨m, fun _ => 0, ρ⟩ (fun r => ∀ c : Dev nD,
      r.2.mem ((c.tc : Thread nD τ).loc main_v18)
        = scaled (tileTotal (outArr (m ((c : Thread nD τ).loc main_arg0))))
            (takeRows (m ((c : Thread nD τ).loc main_arg0)) lastRows) (takeRows (m ((c : Thread nD τ).loc main_arg0)) firstRows)
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v18 (Pipeline.mem_restRefs_of main_v18 (by decide) (by decide))).trans (result m c),
      ((h c).1 0).trans (((dats m 0 c).arrAt_in 0 rfl _).trans ((A_eq m c 0).trans (V_main_arg0 m c))),
      ((h c).2 main_arg1 (Pipeline.mem_restRefs_of main_arg1 (by decide) (by decide))).trans
        (tail_kept m (dats m) c main_arg1 (by decide) (by decide))⟩) (run_main m ρ)

end Cert.KernelIdeal.Result

end
-- ==== Proof.Pairs.lean ====
/-
  The quantity both programs compute, named once: for a matrix `x` of 65536 rows and 2000 columns over the extended
  reals, the dot product of row `i + 1` with row `i` (`pairDot x i`), to be summed over the 65535 adjacent pairs.

  Rows are addressed by a natural number, reading 0 past the last row, so that chunk arithmetic on row numbers is plain
  arithmetic on naturals; every row number that occurs is in range, so the convention is never met.
-/
import Idealize.ShloMosaic.Lib.ValueIdx

noncomputable section

open scoped BigOperators

namespace Cert.Pairs

open Idealize.ShloMosaic Idealize.ShloMosaic.ValueIdx

/-- The factor matrix's shape. -/
abbrev Mat : Shape := ⟨2, ![65536, 2000]⟩

/-- Entry `(i, q)` of `x`. -/
def rowAt (x : Mat.Idx → EReal) (i : ℕ) (q : Fin 2000) : EReal :=
  if h : i < 65536 then x (ix2 ⟨i, h⟩ q) else 0

theorem rowAt_of_lt (x : Mat.Idx → EReal) {i : ℕ} (h : i < 65536) (q : Fin 2000) : rowAt x i q = x (ix2 ⟨i, h⟩ q) :=
  dif_pos h

/-- `x` read at an index is `rowAt` at the index's coordinates. -/
theorem at_coords (x : Mat.Idx → EReal) (j : Mat.Idx) (i : ℕ) (q : Fin 2000) (h0 : (j 0).val = i) (h1 : (j 1).val = q.val) :
    x j = rowAt x i q := by
  have hi : i < 65536 := h0 ▸ idx2_lt0 j
  rw [rowAt_of_lt x hi]
  refine congrArg x (funext fun a => ?_)
  match a with
  | ⟨0, _⟩ => exact Fin.ext h0
  | ⟨1, _⟩ => exact Fin.ext h1

/-- Row `i + 1` dotted with row `i`. -/
def pairDot (x : Mat.Idx → EReal) (i : ℕ) : EReal := ∑ q : Fin 2000, rowAt x (i + 1) q * rowAt x i q

end Cert.Pairs

end
-- ==== Proof.LibPairsByChunks.lean ====
/-
  The counting law behind the kernel: the adjacent pairs of a run of rows, grouped by chunks.

  Rows `0 … n − 1` with `n = (J + 1)(B + 1)` are cut into `J + 1` chunks of `B + 1` consecutive rows. There are `n − 1`
  adjacent pairs `(i, i + 1)`, named by their lower row `i`. Pair `i` lies inside one chunk unless `i` is a chunk's
  last row, in which case it joins that chunk to the next; so the pairs are the `B` inner pairs of each of the
  `J + 1` chunks together with the `J` joining pairs. Any quantity attached to the pairs and summed in a commutative
  monoid can therefore be summed either way. Nothing here needs more than commutativity and associativity of `+`, so
  it holds for sums of extended reals as they stand.
-/
import Idealize.ShloMosaic.Lib.ValueIdx

noncomputable section

open scoped BigOperators

namespace Cert.Lib

open Idealize.ShloMosaic Idealize.ShloMosaic.ValueIdx

/-- THE PAIRS BY CHUNKS: over the lower rows `i < J(B+1) + B` of the adjacent pairs, a sum is the sum over the chunks
    `k ≤ J` of the chunk's `B` inner pairs (lower row `(B+1)k + r`, `r < B`) plus the sum over the `J` joining pairs (lower
    row `(B+1)k + B`, `k < J`). -/
theorem sum_pairs_by_chunks {M : Type*} [AddCommMonoid M] (B J : ℕ) (G : ℕ → M) :
    ∑ i ∈ Finset.range (J * (B + 1) + B), G i
      = ∑ k ∈ Finset.range (J + 1), ∑ r ∈ Finset.range B, G ((B + 1) * k + r)
        + ∑ k ∈ Finset.range J, G ((B + 1) * k + B) := by
  induction J with
  | zero => simp
  | succ J ih =>
    have e : (J + 1) * (B + 1) + B = (J * (B + 1) + B) + (B + 1) := by ring
    have h1 : ∑ x ∈ Finset.range B, G (J * (B + 1) + B + (x + 1)) = ∑ r ∈ Finset.range B, G ((B + 1) * (J + 1) + r) :=
      Finset.sum_congr rfl fun x _ => congrArg G (by ring)
    have h2 : G (J * (B + 1) + B + 0) = G ((B + 1) * J + B) := congrArg G (by ring)
    rw [e, Finset.sum_range_add, ih, Finset.sum_range_succ' (fun x => G (J * (B + 1) + B + x)) B, h1, h2,
      Finset.sum_range_succ (fun k => ∑ r ∈ Finset.range B, G ((B + 1) * k + r)) (J + 1),
      Finset.sum_range_succ (fun k => G ((B + 1) * k + B)) J]
    abel

/-- A sum over every index of a shape `[1, a, b]` is the double sum over the two non-unit coordinates. -/
def idxEquiv1ab {a b : Nat} : (⟨3, ![1, a, b]⟩ : Shape).Idx ≃ Fin a × Fin b where
  toFun i := (i 1, i 2)
  invFun p := ix3 (⟨0, Nat.one_pos⟩ : Fin 1) p.1 p.2
  left_inv i := by
    funext d
    match d with
    | ⟨0, _⟩ => exact Fin.ext (by have h : (i 0).val < 1 := (i 0).isLt; show 0 = (i 0).val; omega)
    | ⟨1, _⟩ => rfl
    | ⟨2, _⟩ => rfl
  right_inv _ := rfl

theorem sum_idx_1ab {M : Type*} [AddCommMonoid M] {a b : Nat} (f : (⟨3, ![1, a, b]⟩ : Shape).Idx → M) :
    ∑ i, f i = ∑ p : Fin a, ∑ q : Fin b, f (ix3 (⟨0, Nat.one_pos⟩ : Fin 1) p q) := by
  rw [← Equiv.sum_comp (idxEquiv1ab (a := a) (b := b)).symm f, Fintype.sum_prod_type]
  rfl

/-- A sum over every index of a rank-1 shape is the sum over its coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  rfl

end Cert.Lib

end
-- ==== Proof.TileSum.lean ====
/-
  A chunk's number, read over the extended reals.

  For a block `x0` of 2048 rows the body forms, entry by entry, `x0[p, q] · x0[p − 1 mod 2048, q] · mask[p]` with
  `mask[0] = 0` and `mask[p] = 1` for `p > 0`, and sums all entries. The row `p = 0` (the one the cyclic shift pairs with the
  block's LAST row) contributes `… · 0 = 0`, and row `p = r + 1` contributes the dot product of rows `r + 1` and `r`. So
  chunk `k`'s number is the sum over `r < 2047` of the matrix's pair `2048·k + r`: the chunk's inner pairs.
-/
import proofs.«175978_j31971736552148_2_alg».proof.Proof.Blocks
import proofs.«175978_j31971736552148_2_alg».proof.Proof.Pairs
import proofs.«175978_j31971736552148_2_alg».proof.Proof.LibPairsByChunks
import Idealize.ShloMosaic.PureOps.Ideal.Laws
import Idealize.ShloMosaic.Lib.KernelVsHost

set_option maxRecDepth 16384

noncomputable section

open scoped BigOperators

namespace Cert.KernelIdeal.TileSum

open Idealize.ShloMosaic Idealize.ShloMosaic.ValueIdx
open Cert.KernelIdeal Cert.KernelIdeal.Gen Cert.KernelIdeal.Blocks Cert.Pairs Cert.Lib

/-- The mask's word at row `p`, read as a signed integer: 0 at the first row, 1 elsewhere. -/
theorem mask_word : ∀ p : Fin 2048,
    ((IntOp.cmpi .sgt (BitVec.ofNat 32 p.val) (0#32 : BitVec 32)).setWidth 32).toInt = if p.val = 0 then 0 else 1 := by
  decide +kernel

/-- The row mask, broadcast along the columns, at entry `(p, q)`. -/
theorem mask_at (p : Fin 2048) (q : Fin 2000) :
    (broadcastTo S2048x2000
        (sitofp (F := Ideal) .f32 (extui 32 (cmpi .sgt (iota .tc S2048x1 32 [0] iota_S2048x1_d0_w32) (broadcast S2048x1 0#32)) natLt_1_32))
        broadcasts_S2048x1_S2048x2000) (ix2 p q)
      = if p.val = 0 then (0 : EReal) else 1 := by
  refine (broadcastTo_apply _ broadcasts_S2048x1_S2048x2000 (ix2 p q) (ix2 p (⟨0, Nat.one_pos⟩ : Fin 1)) ?_).trans ?_
  · intro a
    match a with
    | ⟨0, _⟩ => rfl
    | ⟨1, _⟩ => rfl
  · show ((((IntOp.cmpi .sgt (iota .tc S2048x1 32 [0] iota_S2048x1_d0_w32 (ix2 p (⟨0, Nat.one_pos⟩ : Fin 1))) (0#32 : BitVec 32)).setWidth 32).toInt : ℝ) : EReal) = _
    rw [iota_single_apply]
    show ((((IntOp.cmpi .sgt (BitVec.ofNat 32 p.val) (0#32 : BitVec 32)).setWidth 32).toInt : ℝ) : EReal) = _
    rw [mask_word p]
    split <;> simp

/-- One entry of what the body sums. -/
theorem entry_at (x0 : Vec Ideal S2048x2000 .f32) (p : Fin 2048) (q : Fin 2000) :
    (mulf (mulf x0 (dynamicRotate 0 1#32 none x0 rotates_S2048x2000_d0))
        (broadcastTo S2048x2000
          (sitofp (F := Ideal) .f32 (extui 32 (cmpi .sgt (iota .tc S2048x1 32 [0] iota_S2048x1_d0_w32) (broadcast S2048x1 0#32)) natLt_1_32))
          broadcasts_S2048x1_S2048x2000)) (ix2 p q)
      = x0 (ix2 p q) * x0 (ix2 (⟨(p.val + 2047) % 2048, Nat.mod_lt _ (by norm_num)⟩ : Fin 2048) q)
          * (if p.val = 0 then (0 : EReal) else 1) := by
  rw [mulf_apply, mulf_apply, mask_at p q]
  refine congrArg (fun z => x0 (ix2 p q) * z * (if p.val = 0 then (0 : EReal) else 1)) ?_
  refine dynamicRotate_apply (0 : Fin 2) 1#32 x0 rotates_S2048x2000_d0 (ix2 p q)
    (ix2 (⟨(p.val + 2047) % 2048, Nat.mod_lt _ (by norm_num)⟩ : Fin 2048) q) (fun b => ?_)
  match b with
  | ⟨0, _⟩ =>
    show (p.val + 2047) % 2048 = (p.val + 2048 - 1 % 2048) % 2048
    have := p.isLt
    omega
  | ⟨1, _⟩ => rfl

/-- The block's number is the sum of those entries over rows and columns. -/
theorem tileNum_eq (x0 : Vec Ideal S2048x2000 .f32) :
    tileNum (F := Ideal) x0 = ∑ p : Fin 2048, ∑ q : Fin 2000,
      (x0 (ix2 p q) * x0 (ix2 (⟨(p.val + 2047) % 2048, Nat.mod_lt _ (by norm_num)⟩ : Fin 2048) q)
        * (if p.val = 0 then (0 : EReal) else 1)) := by
  unfold tileNum extractAt
  rw [shapeCast_apply _ shapeCasts_S1_S1x1x1 _ (ix1 (⟨0, Nat.one_pos⟩ : Fin 1))
    (by rw [Shape.rowMajor_val_one, Shape.rowMajor_val_three]; rfl)]
  refine (Ideal.multiReduction_add_total _ (0x00000000#32) reduces_S1x2048x2000_S1 (fun b => by fin_cases b; rfl) _ _ _).trans ?_
  rw [sum_idx_1ab]
  refine Finset.sum_congr rfl fun p _ => Finset.sum_congr rfl fun q _ => ?_
  refine (shapeCast_addUnit_apply ![2048, 2000] _ shapeCasts_S2048x2000_S1x2048x2000 _).trans ?_
  have e : (fun a : Fin 2 => (ix3 (⟨0, Nat.one_pos⟩ : Fin 1) p q) a.succ) = ix2 p q := by
    funext a
    match a with
    | ⟨0, _⟩ => rfl
    | ⟨1, _⟩ => rfl
  exact (congrArg _ e).trans (entry_at x0 p q)

/-- CHUNK `k`'S NUMBER is the sum of the matrix's pairs `2048·k + r`, `r < 2047`. -/
theorem tileNum_chunk (x : Mat.Idx → EReal) (k : Fin 32) :
    tileNum (F := Ideal) (chunk (F := Ideal) x k) = ∑ r ∈ Finset.range 2047, pairDot x (2048 * k.val + r) := by
  rw [tileNum_eq, Fin.sum_univ_succ]
  have hk := k.isLt
  have h0 : (∑ q : Fin 2000, (chunk (F := Ideal) x k (ix2 (0 : Fin 2048) q)
      * chunk (F := Ideal) x k (ix2 (⟨((0 : Fin 2048).val + 2047) % 2048, Nat.mod_lt _ (by norm_num)⟩ : Fin 2048) q)
      * (if (0 : Fin 2048).val = 0 then (0 : EReal) else 1))) = 0 :=
    Finset.sum_eq_zero fun q _ => by simp
  rw [h0, zero_add, Finset.sum_range]
  refine Finset.sum_congr rfl fun r _ => ?_
  unfold pairDot
  refine Finset.sum_congr rfl fun q _ => ?_
  have hr := r.isLt
  have hne : ¬ (r.succ : Fin 2048).val = 0 := by simp
  rw [if_neg hne, mul_one]
  refine congrArg₂ (· * ·) ?_ ?_
  · exact at_coords x _ (2048 * k.val + r.val + 1) q (by show 2048 * k.val + (r.val + 1) = _; omega) rfl
  · exact at_coords x _ (2048 * k.val + r.val) q (by
      show 2048 * k.val + ((r.val + 1) + 2047) % 2048 = _
      omega) rfl

end Cert.KernelIdeal.TileSum

end
-- ==== Proof.Rows.lean ====
/-
  The rows the host lines take, read at an entry.

  `takeRows x idx` (the text of `jnp.take` in fill mode) at entry `(k, q)` is row `n` of `x` at column `q` whenever the
  `k`-th row number, read as a signed 32-bit word, is a number `n` in `0 … 65535`: the word is then not negative, so it is
  not moved; the gather's clamp leaves it; and the in-range test passes, so the fill value is not taken. Both row-number
  vectors of this program — `2048·(k + 1)` and one less, for `k < 31` — are of that kind, decided word by word.
-/
import proofs.«175978_j31971736552148_2_alg».proof.Proof.TailIdeal
import proofs.«175978_j31971736552148_2_alg».proof.Proof.Pairs
import Idealize.ShloMosaic.Lib.Pipeline.Value
import Idealize.ShloMosaic.PureOps.Reduce

set_option maxRecDepth 16384

noncomputable section

namespace Cert.KernelIdeal.Rows

open Idealize.ShloMosaic Idealize.ShloMosaic.ValueIdx
open Cert.KernelIdeal Cert.KernelIdeal.Gen Cert.KernelIdeal.Tail Cert.Pairs

/-- A row-number word that denotes the row `n`, inside the matrix. -/
structure Denotes (w : BitVec 32) (n : ℕ) : Prop where
  notNeg : IntOp.cmpi .slt w (0#32 : BitVec 32) = 0#1
  geZero : IntOp.cmpi .sge w (0#32 : BitVec 32) = 1#1
  leLast : IntOp.cmpi .sle w (65535#32 : BitVec 32) = 1#1
  value : w.toInt.toNat = n
  inside : n < 65536

/-- A vector of 31 words as a column, at row `k`. -/
theorem column_at {w : Nat} (v : IVec S31 w) (k : Fin 31) (c : Fin 1) :
    broadcastInDim S31x1 ![0] bcast_S31_S31x1_0 v (ix2 k c) = v (ix1 k) :=
  broadcastInDim_apply ![0] bcast_S31_S31x1_0 v (ix2 k c) (ix1 k) (fun a => by
    match a with
    | ⟨0, _⟩ => rfl)

/-- A vector of 31 bits repeated along the columns, at `(k, q)`. -/
theorem along_at {w : Nat} (v : IVec S31 w) (k : Fin 31) (q : Fin 2000) :
    broadcastInDim S31x2000 ![0] bcast_S31_S31x2000_0 v (ix2 k q) = v (ix1 k) :=
  broadcastInDim_apply ![0] bcast_S31_S31x2000_0 v (ix2 k q) (ix1 k) (fun a => by
    match a with
    | ⟨0, _⟩ => rfl)

/-- The gather of rows at `(k, q)`: the matrix at the row the `k`-th start index names — read signed, clamped into the
    matrix — and column `q`. -/
theorem gather_at {α : Type} (x : S65536x2000.Idx → α) (col : IVec S31x1 32) (k : Fin 31) (q : Fin 2000) :
    Host.gather gather_S65536x2000_S31x1_S31x2000_1_0_n_n_0_1_12000 x col (ix2 k q)
      = x (ix2 (⟨min (col (ix2 k (⟨0, Nat.one_pos⟩ : Fin 1))).toInt.toNat 65535, by omega⟩ : Fin 65536) q) := by
  unfold Host.gather
  refine congrArg x (funext fun a => Fin.ext ?_)
  show gather_S65536x2000_S31x1_S31x2000_1_0_n_n_0_1_12000.start (ix2 k q) col a
      + gather_S65536x2000_S31x1_S31x2000_1_0_n_n_0_1_12000.batchCoord (ix2 k q) a
      + gather_S65536x2000_S31x1_S31x2000_1_0_n_n_0_1_12000.offCoord (ix2 k q) a = _
  rw [GatherDims.batchCoord_eq_zero _ _ _ List.not_mem_nil, Nat.add_zero]
  match a with
  | ⟨0, h0⟩ =>
    have hm : (⟨0, h0⟩ : Fin S65536x2000.rank) ∈ gather_S65536x2000_S31x1_S31x2000_1_0_n_n_0_1_12000.startIndexMap :=
      List.mem_singleton.mpr rfl
    rw [GatherDims.offCoord_eq_zero _ _ _ (fun h => ((GatherDims.mem_sKept _ _).mp h).1 (List.mem_singleton.mpr rfl)), Nat.add_zero]
    unfold GatherDims.start
    rw [dif_pos hm]
    have hsi : gather_S65536x2000_S31x1_S31x2000_1_0_n_n_0_1_12000.siIdx (ix2 k q)
        ⟨List.idxOf (⟨0, h0⟩ : Fin S65536x2000.rank) gather_S65536x2000_S31x1_S31x2000_1_0_n_n_0_1_12000.startIndexMap,
          List.idxOf_lt_length_iff.2 hm⟩ = ix2 k (⟨0, Nat.one_pos⟩ : Fin 1) := by
      funext b; refine Fin.ext ?_
      match b with
      | ⟨0, _⟩ => rfl
      | ⟨1, _⟩ => rfl
    rw [hsi]
    rfl
  | ⟨1, h1⟩ =>
    have hm : (⟨1, h1⟩ : Fin S65536x2000.rank) ∉ gather_S65536x2000_S31x1_S31x2000_1_0_n_n_0_1_12000.startIndexMap :=
      fun h => absurd (show (1 : ℕ) = 0 from congrArg Fin.val (List.mem_singleton.mp h)) (by decide)
    unfold GatherDims.start
    rw [dif_neg hm, Nat.zero_add]
    rfl

/-- A fold over the one-element index set is one application. -/
theorem fold_fin_one {α : Type} (f : α → α → α) [Std.Commutative f] [Std.Associative f] (b : α) (g : Fin 1 → α) :
    (Finset.univ : Finset (Fin 1)).fold f b g = f (g 0) b := by
  rw [Finset.univ_unique, Finset.fold_singleton]; rfl

/-- The in-range bit of row `k`: 1 when the column's word there is between 0 and 65535. -/
theorem valid_at (col : IVec S31x1 32) (k : Fin 31) (w : BitVec 32) (hc : col (ix2 k (⟨0, Nat.one_pos⟩ : Fin 1)) = w)
    (h2 : IntOp.cmpi .sge w (0#32 : BitVec 32) = 1#1) (h3 : IntOp.cmpi .sle w (65535#32 : BitVec 32) = 1#1) :
    Host.reduce IntOp.andi
        (andi (cmpi .sge col (broadcastInDim S31x1 ![] bcast_S_S31x1 (constantI S_ 32 0#32)))
          (cmpi .sle col (broadcastInDim S31x1 ![0, 1] bcast_S1x1_S31x1_0_1 (broadcastInDim S1x1 ![1] bcast_S1_S1x1_1 (constantI S1 32 65535#32)))))
        (constantI S_ 1 1#1) reducesTo_S31x1_S31_d1 h_S_ (ix1 k) = 1#1 := by
  have hR : S31x1.Reduces [1] S31 := by decide
  rw [Host.reduce_eq_fold_single IntOp.andi _ _ reducesTo_S31x1_S31_d1 hR h_S_ (ix1 k)]
  refine (fold_fin_one IntOp.andi _ _).trans ?_
  have hl : hR.lift (ix1 k) (0 : Fin 1) = ix2 k (⟨0, Nat.one_pos⟩ : Fin 1) := by
    funext b; refine Fin.ext ?_
    match b with
    | ⟨0, _⟩ => rfl
    | ⟨1, _⟩ => rfl
  have hcol : col (hR.lift (ix1 k) (0 : Fin 1)) = w := (congrArg col hl).trans hc
  show IntOp.andi (IntOp.andi (IntOp.cmpi .sge (col (hR.lift (ix1 k) (0 : Fin 1))) (0#32 : BitVec 32))
      (IntOp.cmpi .sle (col (hR.lift (ix1 k) (0 : Fin 1))) (65535#32 : BitVec 32))) (1#1 : BitVec 1) = 1#1
  rw [hcol, h2, h3]
  decide

/-- THE ROWS AT AN ENTRY. -/
theorem takeRows_at (x : Mat.Idx → EReal) (idx : IVec S31 32) (k : Fin 31) (q : Fin 2000) (n : ℕ)
    (h : Denotes (idx (ix1 k)) n) : takeRows (F := Ideal) x idx (ix2 k q) = rowAt x n q := by
  have hnorm : (select (cmpi .slt idx (broadcastInDim S31 ![] bcast_S_S31 (constantI S_ 32 0#32)))
      (addi idx (broadcastInDim S31 ![] bcast_S_S31 (constantI S_ 32 65536#32))) idx) (ix1 k) = idx (ix1 k) := by
    rw [select_apply]
    show Scalar.select (IntOp.cmpi .slt (idx (ix1 k)) (0#32 : BitVec 32)) _ _ = _
    rw [h.notNeg, select_zero]
  unfold takeRows
  rw [select_apply, along_at,
    valid_at _ k (idx (ix1 k)) ((column_at _ k _).trans hnorm) h.geZero h.leLast, select_one, gather_at]
  refine at_coords x _ n q ?_ rfl
  show min (broadcastInDim S31x1 ![0] bcast_S31_S31x1_0
      (select (cmpi .slt idx (broadcastInDim S31 ![] bcast_S_S31 (constantI S_ 32 0#32)))
        (addi idx (broadcastInDim S31 ![] bcast_S_S31 (constantI S_ 32 65536#32))) idx)
      (ix2 k (⟨0, Nat.one_pos⟩ : Fin 1))).toInt.toNat 65535 = n
  rw [(column_at _ k _).trans hnorm, h.value]
  have := h.inside
  omega

/-- The first-row numbers: word `k` denotes row `2048·(k + 1)`. -/
theorem firstRows_denotes : ∀ k : Fin 31, Denotes ((1#32 + BitVec.ofNat 32 k.val) * 2048#32) (2048 * (k.val + 1)) := by
  have h : ∀ k : Fin 31, IntOp.cmpi .slt ((1#32 + BitVec.ofNat 32 k.val) * 2048#32) (0#32 : BitVec 32) = 0#1
      ∧ IntOp.cmpi .sge ((1#32 + BitVec.ofNat 32 k.val) * 2048#32) (0#32 : BitVec 32) = 1#1
      ∧ IntOp.cmpi .sle ((1#32 + BitVec.ofNat 32 k.val) * 2048#32) (65535#32 : BitVec 32) = 1#1
      ∧ ((1#32 + BitVec.ofNat 32 k.val) * 2048#32).toInt.toNat = 2048 * (k.val + 1) := by decide +kernel
  intro k
  obtain ⟨a, b, c, d⟩ := h k
  exact ⟨a, b, c, d, by have := k.isLt; omega⟩

/-- The last-row numbers: word `k` denotes row `2048·(k + 1) − 1 = 2048·k + 2047`. -/
theorem lastRows_denotes : ∀ k : Fin 31, Denotes ((1#32 + BitVec.ofNat 32 k.val) * 2048#32 - 1#32) (2048 * k.val + 2047) := by
  have h : ∀ k : Fin 31, IntOp.cmpi .slt ((1#32 + BitVec.ofNat 32 k.val) * 2048#32 - 1#32) (0#32 : BitVec 32) = 0#1
      ∧ IntOp.cmpi .sge ((1#32 + BitVec.ofNat 32 k.val) * 2048#32 - 1#32) (0#32 : BitVec 32) = 1#1
      ∧ IntOp.cmpi .sle ((1#32 + BitVec.ofNat 32 k.val) * 2048#32 - 1#32) (65535#32 : BitVec 32) = 1#1
      ∧ ((1#32 + BitVec.ofNat 32 k.val) * 2048#32 - 1#32).toInt.toNat = 2048 * k.val + 2047 := by decide +kernel
  intro k
  obtain ⟨a, b, c, d⟩ := h k
  exact ⟨a, b, c, d, by have := k.isLt; omega⟩

theorem firstRows_at (k : Fin 31) : firstRows (F := Ideal) (ix1 k) = (1#32 + BitVec.ofNat 32 k.val) * 2048#32 := rfl
theorem lastRows_at (k : Fin 31) : lastRows (F := Ideal) (ix1 k) = (1#32 + BitVec.ofNat 32 k.val) * 2048#32 - 1#32 := rfl

/-- The rows at the first-row numbers: row `2048·(k + 1)`. -/
theorem take_first (x : Mat.Idx → EReal) (k : Fin 31) (q : Fin 2000) :
    takeRows (F := Ideal) x (firstRows (F := Ideal)) (ix2 k q) = rowAt x (2048 * (k.val + 1)) q :=
  takeRows_at x _ k q _ ((firstRows_at k).symm ▸ firstRows_denotes k)

/-- The rows at the last-row numbers: row `2048·k + 2047`. -/
theorem take_last (x : Mat.Idx → EReal) (k : Fin 31) (q : Fin 2000) :
    takeRows (F := Ideal) x (lastRows (F := Ideal)) (ix2 k q) = rowAt x (2048 * k.val + 2047) q :=
  takeRows_at x _ k q _ ((lastRows_at k).symm ▸ lastRows_denotes k)

end Cert.KernelIdeal.Rows

end
-- ==== Proof.Bridge.lean ====
/-
  The two programs compute one number.

  Over the extended reals the reference's result is `(−w) · S / 65535` with `S` the sum of `pairDot x i` over the 65535
  adjacent row pairs `i`. The kernel's is `(−w) · (S₁ + S₂) / 65535` with the same constant, where `S₁` is the sum over
  the 32 chunks of the chunk's number — its 2047 inner pairs — and `S₂` the sum over the 31 chunk boundaries of the
  boundary rows' dot product — the joining pairs, each product read in the other order. The pairs by chunks are all the
  pairs (`sum_pairs_by_chunks`), so `S₁ + S₂ = S`; only commutativity and associativity of `+` and commutativity of
  `·` are used, so nothing is asked of the inputs.
-/
import proofs.«175978_j31971736552148_2_alg».proof.Proof.Gen.ReferenceIdeal.Read
import proofs.«175978_j31971736552148_2_alg».proof.Proof.TileSum
import proofs.«175978_j31971736552148_2_alg».proof.Proof.Rows

set_option maxRecDepth 16384

noncomputable section

open scoped BigOperators

namespace Cert.Bridge

open Idealize.ShloMosaic Idealize.ShloMosaic.ValueIdx
open Cert.KernelIdeal Cert.KernelIdeal.Gen Cert.KernelIdeal.Blocks Cert.KernelIdeal.Tail Cert.KernelIdeal.Rows
open Cert.KernelIdeal.TileSum Cert.Pairs Cert.Lib

/-- All 65535 pairs, by the 32 chunks of 2048 rows: inner pairs and joining pairs. -/
theorem pairs_by_chunks {M : Type*} [AddCommMonoid M] (G : ℕ → M) :
    ∑ i ∈ Finset.range 65535, G i
      = ∑ k ∈ Finset.range 32, ∑ r ∈ Finset.range 2047, G (2048 * k + r) + ∑ k ∈ Finset.range 31, G (2048 * k + 2047) :=
  sum_pairs_by_chunks 2047 31 G

/-- The total of the tiles' first entries is the sum of every chunk's inner pairs. -/
theorem total_eq (x : Mat.Idx → EReal) (i : S_.Idx) :
    tileTotal (F := Ideal) (outArr (F := Ideal) x) i = ∑ k ∈ Finset.range 32, ∑ r ∈ Finset.range 2047, pairDot x (2048 * k + r) := by
  unfold tileTotal
  simp only [Host.reduceAdd, Ideal.hostReduceAdd_def]
  refine (Ideal.hostReduceAdd_total reducesTo_S32_S_d0 (fun b => b.elim0) _ _ i).trans ?_
  rw [constant_apply, Ideal.ofBits_zero_f32, zero_add, sum_idx1, Finset.sum_range]
  refine Finset.sum_congr rfl fun k _ => ?_
  rw [shapeCast_apply _ shapeCasts_S32x1x1_S32 (ix1 k) (ix3 k (⟨0, Nat.one_pos⟩ : Fin 1) (⟨0, Nat.one_pos⟩ : Fin 1))
      (by rw [Shape.rowMajor_val_three, Shape.rowMajor_val_one]; simp),
    extractStridedSlice_apply ![0, 0, 0] _ slices_S32x8x128_S32x1x1_0_0_0 _
      (ix3 k (⟨0, by norm_num⟩ : Fin 8) (⟨0, by norm_num⟩ : Fin 128)) (fun a => by
        match a with
        | ⟨0, _⟩ => show k.val = 0 + k.val; omega
        | ⟨1, _⟩ => rfl
        | ⟨2, _⟩ => rfl)]
  exact tileNum_chunk x k

/-- The sum of the boundary rows' products is the sum of the joining pairs. -/
theorem cross_eq (x : Mat.Idx → EReal) (i : S_.Idx) :
    Host.reduceAdd (F := Ideal) (mulf (takeRows (F := Ideal) x lastRows) (takeRows (F := Ideal) x firstRows))
        (constant S_ .f32 0x00000000#32) reducesTo_S31x2000_S_d0_1 h_S_ i
      = ∑ k ∈ Finset.range 31, pairDot x (2048 * k + 2047) := by
  simp only [Host.reduceAdd, Ideal.hostReduceAdd_def]
  refine (Ideal.hostReduceAdd_total reducesTo_S31x2000_S_d0_1 (fun b => b.elim0) _ _ i).trans ?_
  rw [constant_apply, Ideal.ofBits_zero_f32, zero_add, sum_idx2, Finset.sum_range]
  refine Finset.sum_congr rfl fun k _ => ?_
  unfold pairDot
  refine Finset.sum_congr rfl fun q _ => ?_
  rw [mulf_apply, take_last, take_first, show 2048 * (k.val + 1) = 2048 * k.val + 2047 + 1 from by omega]
  exact mul_comm _ _

/-- The reference's sum is the sum of all the pairs. -/
theorem ref_eq (x : Mat.Idx → EReal) :
    ∑ j : Cert.ReferenceIdeal.S65535x2000.Idx, Cert.ReferenceIdeal.Read.val_main_v2 (F := Ideal) x j
      = ∑ i ∈ Finset.range 65535, pairDot x i := by
  rw [sum_idx2, Finset.sum_range]
  refine Finset.sum_congr rfl fun p _ => ?_
  unfold pairDot
  refine Finset.sum_congr rfl fun q _ => ?_
  rw [Cert.ReferenceIdeal.Read.val_main_v2_apply, Cert.ReferenceIdeal.Read.val_main_v0_apply,
    Cert.ReferenceIdeal.Read.val_main_v1_apply]
  show x (Cert.ReferenceIdeal.Read.idx_main_v0 (ix2 p q)) * x (Cert.ReferenceIdeal.Read.idx_main_v1 (ix2 p q)) = _
  refine congrArg₂ (· * ·) ?_ ?_
  · exact at_coords x _ (p.val + 1) q (by show 1 + p.val = p.val + 1; omega) rfl
  · exact at_coords x _ p.val q rfl rfl

/-- The two sums agree. -/
theorem sums_eq (x : Mat.Idx → EReal) :
    addf (F := Ideal) (tileTotal (outArr (F := Ideal) x))
        (Host.reduceAdd (mulf (takeRows (F := Ideal) x lastRows) (takeRows (F := Ideal) x firstRows))
          (constant S_ .f32 0x00000000#32) reducesTo_S31x2000_S_d0_1 h_S_)
      = Cert.ReferenceIdeal.Read.val_main_v3 (F := Ideal) x := by
  funext i
  rw [addf_apply, total_eq, cross_eq, Cert.ReferenceIdeal.Read.val_main_v3_apply, ref_eq, pairs_by_chunks]
  show _ = Ideal.ofBits .f32 0x00000000#32 + _
  rw [Ideal.ofBits_zero_f32, zero_add]

/-- THE RESULTS AGREE: the kernel's scalar, from the output array `outArr x` and the arguments, is the reference's. -/
theorem result_eq (x : Mat.Idx → EReal) (w : S_.Idx → EReal) :
    scaled (F := Ideal) (tileTotal (outArr (F := Ideal) x)) (takeRows x lastRows) (takeRows x firstRows) w
      = Cert.ReferenceIdeal.Read.val_main_v6 (F := Ideal) x w := by
  unfold scaled
  rw [sums_eq]
  rfl

end Cert.Bridge

end
-- ==== Proof.lean ====
/-
  The certificate: a row-shift trace regularizer computed chunk by chunk on the TensorCore against its one-line
  reference.

  For a factor matrix `x` of 65536 rows and 2000 columns and a scalar weight `w`, the reference computes
  `(−w) · S / 65535` with `S = Σᵢ ⟨x[i+1], x[i]⟩` over the 65535 adjacent row pairs. The kernel cuts the rows into 32
  chunks of 2048; each grid point multiplies its chunk by itself shifted down one row (cyclically), masks out the first
  row — the one the shift pairs with the chunk's last row — and sums, giving the chunk's 2047 inner pairs; host lines
  then add the 32 numbers, add the 31 pairs that join consecutive chunks (rows gathered at the chunk boundaries), and
  scale by the same `(−w) / 65535`. The pairs by chunks are all the pairs, so over the extended reals the two results
  are equal for every input; the finiteness precondition is not used.

  Frames: each kernel program is one pipelined region followed by host lines that write only their own result buffers
  (`Whole.frame`); the reference is a straight line of host operations. The idealization rewrote nothing, so
  `preserves` is `True`.
-/
import proofs.«175978_j31971736552148_2_alg».proof.Defs
import proofs.«175978_j31971736552148_2_alg».proof.Proof.Gen.Kernel
import proofs.«175978_j31971736552148_2_alg».proof.Proof.Gen.KernelIdeal
import proofs.«175978_j31971736552148_2_alg».proof.Proof.Gen.ReferenceIdeal
import proofs.«175978_j31971736552148_2_alg».proof.Proof.Gen.Pre_finite_inputs
import proofs.«175978_j31971736552148_2_alg».proof.Proof.Gen.ReferenceIdeal.Run
import proofs.«175978_j31971736552148_2_alg».proof.Proof.Gen.ReferenceIdeal.Read
import proofs.«175978_j31971736552148_2_alg».proof.Proof.WholeBits
import proofs.«175978_j31971736552148_2_alg».proof.Proof.WholeIdeal
import proofs.«175978_j31971736552148_2_alg».proof.Proof.Result
import proofs.«175978_j31971736552148_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Whole.frame m ρ

theorem frame_ideal : Cert.frame_KernelIdeal := fun m ρ _ => Cert.KernelIdeal.Whole.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's term of the kernel's arguments in their result buffer. -/
theorem algebraic : Cert.algebraic_KernelIdeal_ReferenceIdeal := by
  intro m ρ m' ρ' _ hagree
  refine ⟨fun c => Cert.ReferenceIdeal.Read.val_main_v6 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Result.run (F := Ideal) m ρ)
    exact Cert.Bridge.result_eq _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
